-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x100 : Shape := ⟨3, ![256, 1024, 100]⟩
abbrev S256x100x128 : Shape := ⟨3, ![256, 100, 128]⟩
abbrev S256x128 : Shape := ⟨2, ![256, 128]⟩
abbrev S256x128x256 : Shape := ⟨3, ![256, 128, 256]⟩
abbrev S256x256 : Shape := ⟨2, ![256, 256]⟩
abbrev S_ : Shape := ⟨0, ![]⟩

class Facts : Prop where
  bcast_S_S256x1024x100 : S_.BroadcastsInDim S256x1024x100 (![] : Fin 0 → Fin S256x1024x100.rank)
  reducesTo_S256x1024x100_S_d0_1_2 : S256x1024x100.ReducesTo [0, 1, 2] S_
  h_S_ : 0 < S_.numel
  bcast_S_S256x100x128 : S_.BroadcastsInDim S256x100x128 (![] : Fin 0 → Fin S256x100x128.rank)
  reducesTo_S256x100x128_S_d0_1_2 : S256x100x128.ReducesTo [0, 1, 2] S_
  bcast_S_S256x128 : S_.BroadcastsInDim S256x128 (![] : Fin 0 → Fin S256x128.rank)
  reducesTo_S256x128_S_d0_1 : S256x128.ReducesTo [0, 1] S_
  bcast_S_S256x128x256 : S_.BroadcastsInDim S256x128x256 (![] : Fin 0 → Fin S256x128x256.rank)
  reducesTo_S256x128x256_S_d0_1_2 : S256x128x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x128x256 1) : IVec S_ 1 :=
  let main_c_5 : IVec S_ 1 := constantI S_ 1 1#1
  let main_v17 : IVec S_ 1 := (fun x v => Host.reduce IntOp.andi x v reducesTo_S256x128x256_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S256x1024x100 .f32) (main_arg1 : FVec F S256x100x128 .f32) (main_arg2 : FVec F S256x128 .f32) (main_arg3 : FVec F S256x128x256 .f32) (main_arg4 : FVec F S256x256 .f32) : IVec S_ 1 :=
  let main_v0 : FVec F S256x1024x100 .f32 := Host.absf main_arg0
  let main_cst : FVec F S_ .f32 := constant S_ .f32 0x7F800000#32
  let main_v1 : FVec F S256x1024x100 .f32 := broadcastInDim S256x1024x100 ![] bcast_S_S256x1024x100 main_cst
  let main_v2 : IVec S256x1024x100 1 := cmpf .olt main_v0 main_v1
  let main_c : IVec S_ 1 := constantI S_ 1 1#1
  let main_v3 : IVec S_ 1 := (fun x v => Host.reduce IntOp.andi x v reducesTo_S256x1024x100_S_d0_1_2 h_S_) main_v2 main_c
  let main_v4 : FVec F S256x100x128 .f32 := Host.absf main_arg1
  let main_cst_0 : FVec F S_ .f32 := constant S_ .f32 0x7F800000#32
  let main_v5 : FVec F S256x100x128 .f32 := broadcastInDim S256x100x128 ![] bcast_S_S256x100x128 main_cst_0
  let main_v6 : IVec S256x100x128 1 := cmpf .olt main_v4 main_v5
  let main_c_1 : IVec S_ 1 := constantI S_ 1 1#1
  let main_v7 : IVec S_ 1 := (fun x v => Host.reduce IntOp.andi x v reducesTo_S256x100x128_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128x256 .f32 := Host.absf main_arg3
  let main_cst_4 : FVec F S_ .f32 := constant S_ .f32 0x7F800000#32
  let main_v15 : FVec F S256x128x256 .f32 := broadcastInDim S256x128x256 ![] bcast_S_S256x128x256 main_cst_4
  let main_v16 : IVec S256x128x256 1 := cmpf .olt main_v14 main_v15
  fn_part1 (F := F) main_arg4 main_v13 main_v16
-- ==== Kernel.lean ====
abbrev S256x1024x100 : Shape := ⟨3, ![256, 1024, 100]⟩
abbrev S256x100x128 : Shape := ⟨3, ![256, 100, 128]⟩
abbrev S256x128 : Shape := ⟨2, ![256, 128]⟩
abbrev S256x128x256 : Shape := ⟨3, ![256, 128, 256]⟩
abbrev S256x256 : Shape := ⟨2, ![256, 256]⟩
abbrev S256x1x128 : Shape := ⟨3, ![256, 1, 128]⟩
abbrev S256x1x256 : Shape := ⟨3, ![256, 1, 256]⟩
abbrev S1024x256x256 : Shape := ⟨3, ![1024, 256, 256]⟩
abbrev S8x1024x100 : Shape := ⟨3, ![8, 1024, 100]⟩
abbrev S8x100x128 : Shape := ⟨3, ![8, 100, 128]⟩
abbrev S8x1x128 : Shape := ⟨3, ![8, 1, 128]⟩
abbrev S8x128x256 : Shape := ⟨3, ![8, 128, 256]⟩
abbrev S8x1x256 : Shape := ⟨3, ![8, 1, 256]⟩
abbrev S1024x8x256 : Shape := ⟨3, ![1024, 8, 256]⟩
abbrev S8x1024x128 : Shape := ⟨3, ![8, 1024, 128]⟩
abbrev S8x1024x256 : Shape := ⟨3, ![8, 1024, 256]⟩
abbrev S1x1024x256 : Shape := ⟨3, ![1, 1024, 256]⟩
abbrev S1024x256 : Shape := ⟨2, ![1024, 256]⟩
abbrev S1024x1x256 : Shape := ⟨3, ![1024, 1, 256]⟩
abbrev S1024x1x256x256 : Shape := ⟨4, ![1024, 1, 256, 256]⟩

abbrev nBuf : Space → Nat
  | .hbm => 9
  | .vmem => 12
  | .smem => 0
  | _ => 0

abbrev bufTy : (tb : Table) → Fin (tcTables nBuf tb) → BufTy
  | .hbm, ⟨0, _⟩ => ⟨S256x1024x100, .f32⟩
  | .hbm, ⟨1, _⟩ => ⟨S256x100x128, .f32⟩
  | .hbm, ⟨2, _⟩ => ⟨S256x128, .f32⟩
  | .hbm, ⟨3, _⟩ => ⟨S256x128x256, .f32⟩
  | .hbm, ⟨4, _⟩ => ⟨S256x256, .f32⟩
  | .hbm, ⟨5, _⟩ => ⟨S256x1x128, .f32⟩
  | .hbm, ⟨6, _⟩ => ⟨S256x1x256, .f32⟩
  | .hbm, ⟨7, _⟩ => ⟨S1024x256x256, .f32⟩
  | .hbm, ⟨8, _⟩ => ⟨S1024x1x256x256, .f32⟩
  | .local _ .vmem, ⟨0, _⟩ => ⟨S8x1024x100, .f32⟩
  | .local _ .vmem, ⟨1, _⟩ => ⟨S8x1024x100, .f32⟩
  | .local _ .vmem, ⟨2, _⟩ => ⟨S8x100x128, .f32⟩
  | .local _ .vmem, ⟨3, _⟩ => ⟨S8x100x128, .f32⟩
  | .local _ .vmem, ⟨4, _⟩ => ⟨S8x1x128, .f32⟩
  | .local _ .vmem, ⟨5, _⟩ => ⟨S8x1x128, .f32⟩
  | .local _ .vmem, ⟨6, _⟩ => ⟨S8x128x256, .f32⟩
  | .local _ .vmem, ⟨7, _⟩ => ⟨S8x128x256, .f32⟩
  | .local _ .vmem, ⟨8, _⟩ => ⟨S8x1x256, .f32⟩
  | .local _ .vmem, ⟨9, _⟩ => ⟨S8x1x256, .f32⟩
  | .local _ .vmem, ⟨10, _⟩ => ⟨S1024x8x256, .f32⟩
  | .local _ .vmem, ⟨11, _⟩ => ⟨S1024x8x256, .f32⟩
  | _, _ => ⟨S256x1024x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x128_S256x1x128 : S256x128.ShapeCasts S256x1x128
  shapeCasts_S256x256_S256x1x256 : S256x256.ShapeCasts S256x1x256
  inb_S8x1024x100_S8x1024x100_0_0_0 : ∀ a, (![0, 0, 0] : Fin 3 → Nat) a + S8x1024x100.size a ≤ S8x1024x100.size a
  h_S8x1024x100 : 0 < S8x1024x100.numel
  inb_S8x100x128_S8x100x128_0_0_0 : ∀ a, (![0, 0, 0] : Fin 3 → Nat) a + S8x100x128.size a ≤ S8x100x128.size a
  h_S8x100x128 : 0 < S8x100x128.numel
  inb_S8x1x128_S8x1x128_0_0_0 : ∀ a, (![0, 0, 0] : Fin 3 → Nat) a + S8x1x128.size a ≤ S8x1x128.size a
  h_S8x1x128 : 0 < S8x1x128.numel
  shapeCasts_S8x1x128_S8x1x128 : S8x1x128.ShapeCasts S8x1x128
  inb_S8x128x256_S8x128x256_0_0_0 : ∀ a, (![0, 0, 0] : Fin 3 → Nat) a + S8x128x256.size a ≤ S8x128x256.size a
  h_S8x128x256 : 0 < S8x128x256.numel
  inb_S8x1x256_S8x1x256_0_0_0 : ∀ a, (![0, 0, 0] : Fin 3 → Nat) a + S8x1x256.size a ≤ S8x1x256.size a
  h_S8x1x256 : 0 < S8x1x256.numel
  shapeCasts_S8x1x256_S8x1x256 : S8x1x256.ShapeCasts S8x1x256
  broadcasts_S8x1x128_S8x1024x128 : S8x1x128.Broadcasts S8x1024x128
  broadcasts_S8x1x256_S8x1024x256 : S8x1x256.Broadcasts S8x1024x256
  slices_S8x1024x256_o0_0_0_S1x1024x256 : S8x1024x256.Slices ![0, 0, 0] S1x1024x256
  shapeCasts_S1x1024x256_S1024x256 : S1x1024x256.ShapeCasts S1024x256
  inb_S1024x8x256_S1024x1x256_0_0_0 : ∀ a, (![0, 0, 0] : Fin 3 → Nat) a + S1024x1x256.size a ≤ S1024x8x256.size a
  h_S1024x1x256 : 0 < S1024x1x256.numel
  shapeCasts_S1024x1x256_S1024x256 : S1024x1x256.ShapeCasts S1024x256
  shapeCasts_S1024x256_S1024x1x256 : S1024x256.ShapeCasts S1024x1x256
  slices_S8x1024x256_o1_0_0_S1x1024x256 : S8x1024x256.Slices ![1, 0, 0] S1x1024x256
  inb_S1024x8x256_S1024x1x256_0_1_0 : ∀ a, (![0, 1, 0] : Fin 3 → Nat) a + S1024x1x256.size a ≤ S1024x8x256.size a
  slices_S8x1024x256_o2_0_0_S1x1024x256 : S8x1024x256.Slices ![2, 0, 0] S1x1024x256
  inb_S1024x8x256_S1024x1x256_0_2_0 : ∀ a, (![0, 2, 0] : Fin 3 → Nat) a + S1024x1x256.size a ≤ S1024x8x256.size a
  slices_S8x1024x256_o3_0_0_S1x1024x256 : S8x1024x256.Slices ![3, 0, 0] S1x1024x256
  inb_S1024x8x256_S1024x1x256_0_3_0 : ∀ a, (![0, 3, 0] : Fin 3 → Nat) a + S1024x1x256.size a ≤ S1024x8x256.size a
  slices_S8x1024x256_o4_0_0_S1x1024x256 : S8x1024x256.Slices ![4, 0, 0] S1x1024x256
  inb_S1024x8x256_S1024x1x256_0_4_0 : ∀ a, (![0, 4, 0] : Fin 3 → Nat) a + S1024x1x256.size a ≤ S1024x8x256.size a
  slices_S8x1024x256_o5_0_0_S1x1024x256 : S8x1024x256.Slices ![5, 0, 0] S1x1024x256
  inb_S1024x8x256_S1024x1x256_0_5_0 : ∀ a, (![0, 5, 0] : Fin 3 → Nat) a + S1024x1x256.size a ≤ S1024x8x256.size a
  slices_S8x1024x256_o6_0_0_S1x1024x256 : S8x1024x256.Slices ![6, 0, 0] S1x1024x256
  inb_S1024x8x256_S1024x1x256_0_6_0 : ∀ a, (![0, 6, 0] : Fin 3 → Nat) a + S1024x1x256.size a ≤ S1024x8x256.size a
  slices_S8x1024x256_o7_0_0_S1x1024x256 : S8x1024x256.Slices ![7, 0, 0] S1x1024x256
  inb_S1024x8x256_S1024x1x256_0_7_0 : ∀ a, (![0, 7, 0] : Fin 3 → Nat) a + S1024x1x256.size a ≤ S1024x8x256.size a
  shapeCasts_S1024x256x256_S1024x1x256x256 : S1024x256x256.ShapeCasts S1024x1x256x256
  dot_S8x1024x100_S8x100x128_S8x1024x128_2_1_1_2_0_0_wf : DotDims.WF S8x1024x100 S8x100x128 S8x1024x128 [2] [1] [1] [2] [0] [0]
  dot_S8x1024x128_S8x128x256_S8x1024x256_2_1_1_2_0_0_wf : DotDims.WF S8x1024x128 S8x128x256 S8x1024x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x100.size a ≤ S256x1024x100.size a
  hwx0_0 : ∀ i : grid0.Coords, EltTy.bits .f32 = 32 ∨ (Rect.block (s := S256x1024x100) S8x1024x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100x128.size a ≤ S256x100x128.size a
  hwx0_1 : ∀ i : grid0.Coords, EltTy.bits .f32 = 32 ∨ (Rect.block (s := S256x100x128) S8x100x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x128.size a ≤ S256x1x128.size a
  hwx0_2 : ∀ i : grid0.Coords, EltTy.bits .f32 = 32 ∨ (Rect.block (s := S256x1x128) S8x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x256.size a ≤ S256x128x256.size a
  hwx0_3 : ∀ i : grid0.Coords, EltTy.bits .f32 = 32 ∨ (Rect.block (s := S256x128x256) S8x128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x256.size a ≤ S256x1x256.size a
  hwx0_4 : ∀ i : grid0.Coords, EltTy.bits .f32 = 32 ∨ (Rect.block (s := S256x1x256) S8x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x8x256.size a ≤ S1024x256x256.size a
  hwx0_5 : ∀ i : grid0.Coords, EltTy.bits .f32 = 32 ∨ (Rect.block (s := S1024x256x256) S1024x8x256.size (cc0_transform_5 i) (hinb0_5 i)).WholeWords (EltTy.packing .f32)

variable [Facts₀]

def dot_S8x1024x100_S8x100x128_S8x1024x128_2_1_1_2_0_0 : DotDims S8x1024x100 S8x100x128 S8x1024x128 where
  lhsContracting := [2]
  rhsContracting := [1]
  lhsNonContracting := [1]
  rhsNonContracting := [2]
  lhsBatch := [0]
  rhsBatch := [0]
  wf := dot_S8x1024x100_S8x100x128_S8x1024x128_2_1_1_2_0_0_wf
def dot_S8x1024x128_S8x128x256_S8x1024x256_2_1_1_2_0_0 : DotDims S8x1024x128 S8x128x256 S8x1024x256 where
  lhsContracting := [2]
  rhsContracting := [1]
  lhsNonContracting := [1]
  rhsNonContracting := [2]
  lhsBatch := [0]
  rhsBatch := [0]
  wf := dot_S8x1024x128_S8x128x256_S8x1024x256_2_1_1_2_0_0_wf

abbrev win0_0 : Pipeline.Window sig grid0 :=
  Pipeline.Window.ofSpec (Memref.whole main_arg0) S8x1024x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x1024x100 : Shape := ⟨3, ![256, 1024, 100]⟩
abbrev S256x100x128 : Shape := ⟨3, ![256, 100, 128]⟩
abbrev S256x128 : Shape := ⟨2, ![256, 128]⟩
abbrev S256x128x256 : Shape := ⟨3, ![256, 128, 256]⟩
abbrev S256x256 : Shape := ⟨2, ![256, 256]⟩
abbrev S256x1024x128 : Shape := ⟨3, ![256, 1024, 128]⟩
abbrev S256x1x128 : Shape := ⟨3, ![256, 1, 128]⟩
abbrev S_ : Shape := ⟨0, ![]⟩
abbrev S256x1024x256 : Shape := ⟨3, ![256, 1024, 256]⟩
abbrev S256x1x256 : Shape := ⟨3, ![256, 1, 256]⟩
abbrev S1024x256x256 : Shape := ⟨3, ![1024, 256, 256]⟩
abbrev S1024x1x256x256 : Shape := ⟨4, ![1024, 1, 256, 256]⟩

abbrev nBuf : Space → Nat
  | .hbm => 19
  | .vmem => 0
  | .smem => 0
  | _ => 0

abbrev bufTy : (tb : Table) → Fin (tcTables nBuf tb) → BufTy
  | .hbm, ⟨0, _⟩ => ⟨S256x1024x100, .f32⟩
  | .hbm, ⟨1, _⟩ => ⟨S256x100x128, .f32⟩
  | .hbm, ⟨2, _⟩ => ⟨S256x128, .f32⟩
  | .hbm, ⟨3, _⟩ => ⟨S256x128x256, .f32⟩
  | .hbm, ⟨4, _⟩ => ⟨S256x256, .f32⟩
  | .hbm, ⟨5, _⟩ => ⟨S256x1024x128, .f32⟩
  | .hbm, ⟨6, _⟩ => ⟨S256x1x128, .f32⟩
  | .hbm, ⟨7, _⟩ => ⟨S256x1024x128, .f32⟩
  | .hbm, ⟨8, _⟩ => ⟨S256x1024x128, .f32⟩
  | .hbm, ⟨9, _⟩ => ⟨S_, .f32⟩
  | .hbm, ⟨10, _⟩ => ⟨S256x1024x128, .f32⟩
  | .hbm, ⟨11, _⟩ => ⟨S256x1024x128, .f32⟩
  | .hbm, ⟨12, _⟩ => ⟨S256x1024x256, .f32⟩
  | .hbm, ⟨13, _⟩ => ⟨S256x1x256, .f32⟩
  | .hbm, ⟨14, _⟩ => ⟨S256x1024x256, .f32⟩
  | .hbm, ⟨15, _⟩ => ⟨S256x1024x256, .f32⟩
  | .hbm, ⟨16, _⟩ => ⟨S256x1024x256, .f32⟩
  | .hbm, ⟨17, _⟩ => ⟨S1024x256x256, .f32⟩
  | .hbm, ⟨18, _⟩ => ⟨S1024x1x256x256, .f32⟩
  | _, _ => ⟨S256x1024x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S256x128_S256x1x128_0_2 : S256x128.BroadcastsInDim S256x1x128 (![0, 2] : Fin 2 → Fin S256x1x128.rank)
  bcast_S256x1x128_S256x1024x128_0_1_2 : S256x1x128.BroadcastsInDim S256x1024x128 (![0, 1, 2] : Fin 3 → Fin S256x1024x128.rank)
  bcast_S_S256x1024x128 : S_.BroadcastsInDim S256x1024x128 (![] : Fin 0 → Fin S256x1024x128.rank)
  bcast_S256x256_S256x1x256_0_2 : S256x256.BroadcastsInDim S256x1x256 (![0, 2] : Fin 2 → Fin S256x1x256.rank)
  bcast_S256x1x256_S256x1024x256_0_1_2 : S256x1x256.BroadcastsInDim S256x1024x256 (![0, 1, 2] : Fin 3 → Fin S256x1024x256.rank)
  transposes_S256x1024x256_S1024x256x256_1_0_2 : S256x1024x256.Transposes [1, 0, 2] S1024x256x256
  shapeCasts_S1024x256x256_S1024x1x256x256 : S1024x256x256.ShapeCasts S1024x1x256x256
  dot_S256x1024x100_S256x100x128_S256x1024x128_2_1_1_2_0_0_wf : DotDims.WF S256x1024x100 S256x100x128 S256x1024x128 [2] [1] [1] [2] [0] [0]
  dot_S256x1024x128_S256x128x256_S256x1024x256_2_1_1_2_0_0_wf : DotDims.WF S256x1024x128 S256x128x256 S256x1024x256 [2] [1] [1] [2] [0] [0]

variable [Facts₀]

def dot_S256x1024x100_S256x100x128_S256x1024x128_2_1_1_2_0_0 : DotDims S256x1024x100 S256x100x128 S256x1024x128 where
  lhsContracting := [2]
  rhsContracting := [1]
  lhsNonContracting := [1]
  rhsNonContracting := [2]
  lhsBatch := [0]
  rhsBatch := [0]
  wf := dot_S256x1024x100_S256x100x128_S256x1024x128_2_1_1_2_0_0_wf
def dot_S256x1024x128_S256x128x256_S256x1024x256_2_1_1_2_0_0 : DotDims S256x1024x128 S256x128x256 S256x1024x256 where
  lhsContracting := [2]
  rhsContracting := [1]
  lhsNonContracting := [1]
  rhsNonContracting := [2]
  lhsBatch := [0]
  rhsBatch := [0]
  wf := dot_S256x1024x128_S256x128x256_S256x1024x256_2_1_1_2_0_0_wf

class Facts : Prop extends Facts₀ where

variable [Facts]
-- ==== Proof.Mlp.lean ====
/-
  The function both programs compute.  There are 256 independent two-layer perceptrons ("generators").  Generator
  `g` maps a noise row `x[g, b, ·]` of length 100 to a hidden row of length 128,
      hid[h] = max (Σ_n x[g, b, n] · W1[g, n, h] + b1[g, h]) 0,
  and that to an output row of length 256,
      out[o] = tanh (Σ_h hid[h] · W2[g, h, o] + b2[g, o]).
  The result array has the batch axis first: entry (b, g, o) is generator `g`'s output `o` on batch row `b`.
  Everything is read on the extended reals, where sums and products are exact; no law beyond the definitions is needed
  to compare two programs that both spell this function, so finiteness of the inputs is never used.
-/
import Idealize.ShloMosaic.PureOps.Ideal
import Idealize.ShloMosaic.Lib.ValueIdx

noncomputable section

namespace Cert.Mlp

open Idealize.ShloMosaic Idealize.ShloMosaic.ValueIdx

/-- One output of one perceptron: from a noise row `x`, the first layer's weights `w1` and bias `b1`, the column `w2` of
    the second layer's weights that feeds this output, and its bias `b2`.  The rectifier's zero is the float word of
    `0.0`, kept as a word: both programs carry the same word, so its value is never needed. -/
def unit (x : Fin 100 → EReal) (w1 : Fin 100 → Fin 128 → EReal) (b1 : Fin 128 → EReal) (w2 : Fin 128 → EReal)
    (b2 : EReal) : EReal :=
  Ideal.tanh ((∑ h : Fin 128, max ((∑ n : Fin 100, x n * w1 n h) + b1 h) (Ideal.ofBits .f32 0x00000000#32) * w2 h) + b2)

/-- Generator `g`'s output `o` on batch row `b`, from the five argument arrays. -/
def entry (a0 : (⟨3, ![256, 1024, 100]⟩ : Shape).Idx → EReal) (a1 : (⟨3, ![256, 100, 128]⟩ : Shape).Idx → EReal)
    (a2 : (⟨2, ![256, 128]⟩ : Shape).Idx → EReal) (a3 : (⟨3, ![256, 128, 256]⟩ : Shape).Idx → EReal)
    (a4 : (⟨2, ![256, 256]⟩ : Shape).Idx → EReal) (g : Fin 256) (b : Fin 1024) (o : Fin 256) : EReal :=
  unit (fun n => a0 (ix3 g b n)) (fun n h => a1 (ix3 g n h)) (fun h => a2 (ix2 g h)) (fun h => a3 (ix3 g h o)) (a4 (ix2 g o))

/-- The whole result before its last reshape: batch row, generator, output. -/
def image (a0 : (⟨3, ![256, 1024, 100]⟩ : Shape).Idx → EReal) (a1 : (⟨3, ![256, 100, 128]⟩ : Shape).Idx → EReal)
    (a2 : (⟨2, ![256, 128]⟩ : Shape).Idx → EReal) (a3 : (⟨3, ![256, 128, 256]⟩ : Shape).Idx → EReal)
    (a4 : (⟨2, ![256, 256]⟩ : Shape).Idx → EReal) : (⟨3, ![1024, 256, 256]⟩ : Shape).Idx → EReal :=
  fun i => entry a0 a1 a2 a3 a4 (i 1) (i 0) (i 2)

end Cert.Mlp

end
-- ==== Proof.Payload.lean ====
/-
  The body's arithmetic, read at an index.  A grid point holds eight generators.  Its one computed value is
      tanh (max (x · W1 + b1) 0 · W2 + b2)
  over [8, 1024, 256]: both products are batched over the block's generator axis and contract the last axis of the
  left factor with the middle axis of the right one, so entry (g, b, j) of a product is the sum over the contracted
  coordinate k of left (g, b, k) · right (g, k, j) (the accumulator is the zero word, which adds nothing); a bias block
  has a unit middle axis and is broadcast along the batch axis, so it is read at (g, 0, ·).  Entry (g, b, o) of the
  value is therefore `Mlp.unit` of row b of generator g's noise, generator g's weights and biases, and column o.
-/
import proofs.«171724_j16664473109117_2_alg».proof.Proof.Gen.KernelIdeal.Skeleton
import proofs.«171724_j16664473109117_2_alg».proof.Proof.Mlp
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

/-! ## Where the two products read their factors -/

theorem first_lhs0 (i : S8x1024x128.Idx) (q : dot_S8x1024x100_S8x100x128_S8x1024x128_2_1_1_2_0_0.contr.Idx) : (dot_S8x1024x100_S8x100x128_S8x1024x128_2_1_1_2_0_0.lhsIdx i q 0).val = (i 0).val := by
  unfold DotDims.lhsIdx
  rw [dif_pos (show (0 : Fin S8x1024x100.rank) ∈ dot_S8x1024x100_S8x100x128_S8x1024x128_2_1_1_2_0_0.lhsBatch by decide)]
  rfl
theorem first_lhs1 (i : S8x1024x128.Idx) (q : dot_S8x1024x100_S8x100x128_S8x1024x128_2_1_1_2_0_0.contr.Idx) : (dot_S8x1024x100_S8x100x128_S8x1024x128_2_1_1_2_0_0.lhsIdx i q 1).val = (i 1).val := by
  unfold DotDims.lhsIdx
  rw [dif_neg (show ¬(1 : Fin S8x1024x100.rank) ∈ dot_S8x1024x100_S8x100x128_S8x1024x128_2_1_1_2_0_0.lhsBatch by decide),
    dif_pos (show (1 : Fin S8x1024x100.rank) ∈ dot_S8x1024x100_S8x100x128_S8x1024x128_2_1_1_2_0_0.lhsNonContracting by decide)]
  rfl
theorem first_lhs2 (i : S8x1024x128.Idx) (q : dot_S8x1024x100_S8x100x128_S8x1024x128_2_1_1_2_0_0.contr.Idx) : (dot_S8x1024x100_S8x100x128_S8x1024x128_2_1_1_2_0_0.lhsIdx i q 2).val = (q ⟨0, by decide⟩).val :=
  dot_S8x1024x100_S8x100x128_S8x1024x128_2_1_1_2_0_0.lhsIdx_val_of_single rfl i q
theorem first_rhs0 (i : S8x1024x128.Idx) (q : dot_S8x1024x100_S8x100x128_S8x1024x128_2_1_1_2_0_0.contr.Idx) : (dot_S8x1024x100_S8x100x128_S8x1024x128_2_1_1_2_0_0.rhsIdx i q 0).val = (i 0).val := by
  unfold DotDims.rhsIdx
  rw [dif_pos (show (0 : Fin S8x100x128.rank) ∈ dot_S8x1024x100_S8x100x128_S8x1024x128_2_1_1_2_0_0.rhsBatch by decide)]
  rfl
theorem first_rhs1 (i : S8x1024x128.Idx) (q : dot_S8x1024x100_S8x100x128_S8x1024x128_2_1_1_2_0_0.contr.Idx) : (dot_S8x1024x100_S8x100x128_S8x1024x128_2_1_1_2_0_0.rhsIdx i q 1).val = (q ⟨0, by decide⟩).val :=
  dot_S8x1024x100_S8x100x128_S8x1024x128_2_1_1_2_0_0.rhsIdx_val_of_single rfl i q
theorem first_rhs2 (i : S8x1024x128.Idx) (q : dot_S8x1024x100_S8x100x128_S8x1024x128_2_1_1_2_0_0.contr.Idx) : (dot_S8x1024x100_S8x100x128_S8x1024x128_2_1_1_2_0_0.rhsIdx i q 2).val = (i 2).val := by
  unfold DotDims.rhsIdx
  rw [dif_neg (show ¬(2 : Fin S8x100x128.rank) ∈ dot_S8x1024x100_S8x100x128_S8x1024x128_2_1_1_2_0_0.rhsBatch by decide),
    dif_pos (show (2 : Fin S8x100x128.rank) ∈ dot_S8x1024x100_S8x100x128_S8x1024x128_2_1_1_2_0_0.rhsNonContracting by decide)]
  rfl

theorem second_lhs0 (i : S8x1024x256.Idx) (q : dot_S8x1024x128_S8x128x256_S8x1024x256_2_1_1_2_0_0.contr.Idx) : (dot_S8x1024x128_S8x128x256_S8x1024x256_2_1_1_2_0_0.lhsIdx i q 0).val = (i 0).val := by
  unfold DotDims.lhsIdx
  rw [dif_pos (show (0 : Fin S8x1024x128.rank) ∈ dot_S8x1024x128_S8x128x256_S8x1024x256_2_1_1_2_0_0.lhsBatch by decide)]
  rfl
theorem second_lhs1 (i : S8x1024x256.Idx) (q : dot_S8x1024x128_S8x128x256_S8x1024x256_2_1_1_2_0_0.contr.Idx) : (dot_S8x1024x128_S8x128x256_S8x1024x256_2_1_1_2_0_0.lhsIdx i q 1).val = (i 1).val := by
  unfold DotDims.lhsIdx
  rw [dif_neg (show ¬(1 : Fin S8x1024x128.rank) ∈ dot_S8x1024x128_S8x128x256_S8x1024x256_2_1_1_2_0_0.lhsBatch by decide),
    dif_pos (show (1 : Fin S8x1024x128.rank) ∈ dot_S8x1024x128_S8x128x256_S8x1024x256_2_1_1_2_0_0.lhsNonContracting by decide)]
  rfl
theorem second_lhs2 (i : S8x1024x256.Idx) (q : dot_S8x1024x128_S8x128x256_S8x1024x256_2_1_1_2_0_0.contr.Idx) : (dot_S8x1024x128_S8x128x256_S8x1024x256_2_1_1_2_0_0.lhsIdx i q 2).val = (q ⟨0, by decide⟩).val :=
  dot_S8x1024x128_S8x128x256_S8x1024x256_2_1_1_2_0_0.lhsIdx_val_of_single rfl i q
theorem second_rhs0 (i : S8x1024x256.Idx) (q : dot_S8x1024x128_S8x128x256_S8x1024x256_2_1_1_2_0_0.contr.Idx) : (dot_S8x1024x128_S8x128x256_S8x1024x256_2_1_1_2_0_0.rhsIdx i q 0).val = (i 0).val := by
  unfold DotDims.rhsIdx
  rw [dif_pos (show (0 : Fin S8x128x256.rank) ∈ dot_S8x1024x128_S8x128x256_S8x1024x256_2_1_1_2_0_0.rhsBatch by decide)]
  rfl
theorem second_rhs1 (i : S8x1024x256.Idx) (q : dot_S8x1024x128_S8x128x256_S8x1024x256_2_1_1_2_0_0.contr.Idx) : (dot_S8x1024x128_S8x128x256_S8x1024x256_2_1_1_2_0_0.rhsIdx i q 1).val = (q ⟨0, by decide⟩).val :=
  dot_S8x1024x128_S8x128x256_S8x1024x256_2_1_1_2_0_0.rhsIdx_val_of_single rfl i q
theorem second_rhs2 (i : S8x1024x256.Idx) (q : dot_S8x1024x128_S8x128x256_S8x1024x256_2_1_1_2_0_0.contr.Idx) : (dot_S8x1024x128_S8x128x256_S8x1024x256_2_1_1_2_0_0.rhsIdx i q 2).val = (i 2).val := by
  unfold DotDims.rhsIdx
  rw [dif_neg (show ¬(2 : Fin S8x128x256.rank) ∈ dot_S8x1024x128_S8x128x256_S8x1024x256_2_1_1_2_0_0.rhsBatch by decide),
    dif_pos (show (2 : Fin S8x128x256.rank) ∈ dot_S8x1024x128_S8x128x256_S8x1024x256_2_1_1_2_0_0.rhsNonContracting by decide)]
  rfl

/-! ## The two products as sums -/

/-- Noise times first-layer weights: entry (g, b, h) sums over the 100 noise coordinates. -/
theorem first_product_apply (l : FVec Ideal S8x1024x100 .f32) (r : FVec Ideal S8x100x128 .f32) (g : Fin 8) (b : Fin 1024) (j : Fin 128) :
    FloatOps.matmul dot_S8x1024x100_S8x100x128_S8x1024x128_2_1_1_2_0_0 (some .fp32) l r (constant (F := Ideal) S8x1024x128 .f32 0x00000000#32) (ix3 g b j)
      = ∑ k : Fin 100, l (ix3 g b k) * r (ix3 g k j) := by
  rw [Ideal.matmul_constant_zero_apply, ← Equiv.sum_comp (contrEquiv1 dot_S8x1024x100_S8x100x128_S8x1024x128_2_1_1_2_0_0 100 rfl rfl).symm]
  refine Finset.sum_congr rfl fun k _ => ?_
  have hk := contrEquiv1_symm_val dot_S8x1024x100_S8x100x128_S8x1024x128_2_1_1_2_0_0 100 rfl rfl k
  have el : dot_S8x1024x100_S8x100x128_S8x1024x128_2_1_1_2_0_0.lhsIdx (ix3 g b j) ((contrEquiv1 dot_S8x1024x100_S8x100x128_S8x1024x128_2_1_1_2_0_0 100 rfl rfl).symm k) = ix3 g b k :=
    funext fun a => Fin.ext (by
      match a with
      | ⟨0, _⟩ => exact first_lhs0 _ _
      | ⟨1, _⟩ => exact first_lhs1 _ _
      | ⟨2, _⟩ => exact (first_lhs2 _ _).trans hk)
  have er : dot_S8x1024x100_S8x100x128_S8x1024x128_2_1_1_2_0_0.rhsIdx (ix3 g b j) ((contrEquiv1 dot_S8x1024x100_S8x100x128_S8x1024x128_2_1_1_2_0_0 100 rfl rfl).symm k) = ix3 g k j :=
    funext fun a => Fin.ext (by
      match a with
      | ⟨0, _⟩ => exact first_rhs0 _ _
      | ⟨1, _⟩ => exact (first_rhs1 _ _).trans hk
      | ⟨2, _⟩ => exact first_rhs2 _ _)
  rw [el, er]

/-- Hidden row times second-layer weights: entry (g, b, o) sums over the 128 hidden units. -/
theorem second_product_apply (l : FVec Ideal S8x1024x128 .f32) (r : FVec Ideal S8x128x256 .f32) (g : Fin 8) (b : Fin 1024) (j : Fin 256) :
    FloatOps.matmul dot_S8x1024x128_S8x128x256_S8x1024x256_2_1_1_2_0_0 (some .fp32) l r (constant (F := Ideal) S8x1024x256 .f32 0x00000000#32) (ix3 g b j)
      = ∑ k : Fin 128, l (ix3 g b k) * r (ix3 g k j) := by
  rw [Ideal.matmul_constant_zero_apply, ← Equiv.sum_comp (contrEquiv1 dot_S8x1024x128_S8x128x256_S8x1024x256_2_1_1_2_0_0 128 rfl rfl).symm]
  refine Finset.sum_congr rfl fun k _ => ?_
  have hk := contrEquiv1_symm_val dot_S8x1024x128_S8x128x256_S8x1024x256_2_1_1_2_0_0 128 rfl rfl k
  have el : dot_S8x1024x128_S8x128x256_S8x1024x256_2_1_1_2_0_0.lhsIdx (ix3 g b j) ((contrEquiv1 dot_S8x1024x128_S8x128x256_S8x1024x256_2_1_1_2_0_0 128 rfl rfl).symm k) = ix3 g b k :=
    funext fun a => Fin.ext (by
      match a with
      | ⟨0, _⟩ => exact second_lhs0 _ _
      | ⟨1, _⟩ => exact second_lhs1 _ _
      | ⟨2, _⟩ => exact (second_lhs2 _ _).trans hk)
  have er : dot_S8x1024x128_S8x128x256_S8x1024x256_2_1_1_2_0_0.rhsIdx (ix3 g b j) ((contrEquiv1 dot_S8x1024x128_S8x128x256_S8x1024x256_2_1_1_2_0_0 128 rfl rfl).symm k) = ix3 g k j :=
    funext fun a => Fin.ext (by
      match a with
      | ⟨0, _⟩ => exact second_rhs0 _ _
      | ⟨1, _⟩ => exact (second_rhs1 _ _).trans hk
      | ⟨2, _⟩ => exact second_rhs2 _ _)
  rw [el, er]

/-! ## A bias block broadcast along the batch axis -/

/-- The first layer's bias block [8, 1, 128], broadcast to [8, 1024, 128], is read at (g, 0, h). -/
theorem first_bias_apply (x2 : Vec Ideal S8x1x128 .f32) (c : S8x1x128.ShapeCasts S8x1x128) (hb : S8x1x128.Broadcasts S8x1024x128)
    (g : Fin 8) (b : Fin 1024) (h : Fin 128) :
    broadcastTo S8x1024x128 (shapeCast S8x1x128 x2 c) hb (ix3 g b h) = x2 (ix3 g 0 h) := by
  rw [shapeCast_self]
  exact broadcastTo_apply x2 hb (ix3 g b h) (ix3 g 0 h) (fun a => by
    match a with
    | ⟨0, _⟩ => show g.val = if (8 : Nat) = 1 then 0 else g.val; rw [if_neg (by decide)]
    | ⟨1, _⟩ => show 0 = if (1 : Nat) = 1 then 0 else b.val; rw [if_pos rfl]
    | ⟨2, _⟩ => show h.val = if (128 : Nat) = 1 then 0 else h.val; rw [if_neg (by decide)])

/-- The second layer's bias block [8, 1, 256], broadcast to [8, 1024, 256], is read at (g, 0, o). -/
theorem second_bias_apply (x4 : Vec Ideal S8x1x256 .f32) (c : S8x1x256.ShapeCasts S8x1x256) (hb : S8x1x256.Broadcasts S8x1024x256)
    (g : Fin 8) (b : Fin 1024) (o : Fin 256) :
    broadcastTo S8x1024x256 (shapeCast S8x1x256 x4 c) hb (ix3 g b o) = x4 (ix3 g 0 o) := by
  rw [shapeCast_self]
  exact broadcastTo_apply x4 hb (ix3 g b o) (ix3 g 0 o) (fun a => by
    match a with
    | ⟨0, _⟩ => show g.val = if (8 : Nat) = 1 then 0 else g.val; rw [if_neg (by decide)]
    | ⟨1, _⟩ => show 0 = if (1 : Nat) = 1 then 0 else b.val; rw [if_pos rfl]
    | ⟨2, _⟩ => show o.val = if (256 : Nat) = 1 then 0 else o.val; rw [if_neg (by decide)])

/-! ## The computed value -/

/-- Entry (g, b, o) of the body's value is the perceptron's output on the block's rows and columns. -/
theorem value_apply (x0 : Vec Ideal S8x1024x100 .f32) (x1 : Vec Ideal S8x100x128 .f32) (x2 : Vec Ideal S8x1x128 .f32)
    (x3 : Vec Ideal S8x128x256 .f32) (x4 : Vec Ideal S8x1x256 .f32) (g : Fin 8) (b : Fin 1024) (o : Fin 256) :
    k0_pay7 (F := Ideal) x0 x1 x2 x3 x4 (ix3 g b o)
      = Cert.Mlp.unit (fun n => x0 (ix3 g b n)) (fun n h => x1 (ix3 g n h)) (fun h => x2 (ix3 g 0 h))
          (fun h => x3 (ix3 g h o)) (x4 (ix3 g 0 o)) := by
  unfold k0_pay7 Cert.Mlp.unit
  -- tanh of (second product + second bias), the product's left factor the rectified first layer
  refine congrArg Ideal.tanh ?_
  refine congrArg₂ (· + ·) ?_ (second_bias_apply x4 _ _ g b o)
  refine (second_product_apply _ x3 g b o).trans ?_
  refine Finset.sum_congr rfl fun h _ => ?_
  refine congrArg (· * x3 (ix3 g h o)) ?_
  refine congrArg₂ max ?_ rfl
  exact congrArg₂ (· + ·) (first_product_apply x0 x1 g b h) (first_bias_apply x2 _ _ g b h)

end Cert.KernelIdeal.BodyValue

end
-- ==== Proof.Stores.lean ====
/-
  What the body leaves in the output block.  The computed value has the generator axis first, [8, 1024, 256]; the
  output block has the batch axis first, [1024, 8, 256].  The body stores generator g's slab — slice g of the
  value, its unit axis dropped and put back in the middle — through the rectangle [all b, g, all o], one store per
  generator.  The eight rectangles tile the block, and every store's payload is the restriction of ONE function of the
  block index, (b, g, o) ↦ value (g, b, o); so the block after the stores is that function: the stores transpose the
  first two axes.
-/
import proofs.«171724_j16664473109117_2_alg».proof.Proof.Gen.KernelIdeal.Frame
import Idealize.ShloMosaic.Lib.Pipeline.Value
import Idealize.ShloMosaic.Lib.ValueIdx

set_option maxRecDepth 16384

noncomputable section

namespace Cert.KernelIdeal.BodyValue

open Cert.KernelIdeal Cert.KernelIdeal.Gen Idealize.ShloMosaic Idealize.ShloMosaic.ValueIdx

variable {F : FTy → Type} [FloatOps F]

/-- Slice `g` of a [8, 1024, 256] value, viewed [1024, 256] and then [1024, 1, 256], holds at (b, 0, o) the value's entry
    (g, b, o): each cast keeps the row-major position, and the slice shifts the first coordinate by its offset. -/
theorem slab_apply {α : Type} (v : S8x1024x256.Idx → α) (off : Fin 3 → Nat) (hs : S8x1024x256.Slices off S1x1024x256)
    (c1 : S1x1024x256.ShapeCasts S1024x256) (c2 : S1024x256.ShapeCasts S1024x1x256) (g : Fin 8)
    (h0 : off 0 = g.val) (h1 : off 1 = 0) (h2 : off 2 = 0) (x : S1024x1x256.Idx) :
    shapeCast S1024x1x256 (shapeCast S1024x256 (extractStridedSlice S1x1024x256 off v hs) c1) c2 x
      = v (ix3 g (x 0) (x 2)) := by
  have hx1 : (x 1).val < 1 := (x 1).isLt
  refine (shapeCast_apply _ c2 x (ix2 (x 0) (x 2)) ?_).trans ?_
  · rw [Shape.rowMajor_val_two, Shape.rowMajor_val_three]
    show (x 0).val * 256 + (x 2).val = ((x 0).val * 1 + (x 1).val) * 256 + (x 2).val
    omega
  refine (shapeCast_apply _ c1 (ix2 (x 0) (x 2)) (ix3 (0 : Fin 1) (x 0) (x 2)) ?_).trans ?_
  · rw [Shape.rowMajor_val_two, Shape.rowMajor_val_three]
    show (0 * 1024 + (x 0).val) * 256 + (x 2).val = (x 0).val * 256 + (x 2).val
    omega
  exact extractStridedSlice_apply off v hs (ix3 (0 : Fin 1) (x 0) (x 2)) (ix3 g (x 0) (x 2)) (fun a => by
    match a with
    | ⟨0, _⟩ => show g.val = off 0 + 0; omega
    | ⟨1, _⟩ => show (x 0).val = off 1 + (x 0).val; omega
    | ⟨2, _⟩ => show (x 2).val = off 2 + (x 2).val; omega)

/-! ## Each store's payload is its generator's slab -/

theorem slab3_apply (v : FVec F S8x1024x256 .f32) (x : S1024x1x256.Idx) :
    k0_pay2 v x = v (ix3 (3 : Fin 8) (x 0) (x 2)) := by
  unfold k0_pay2
  exact slab_apply v _ _ _ _ (3 : Fin 8) rfl rfl rfl x

theorem slab4_apply (v : FVec F S8x1024x256 .f32) (x : S1024x1x256.Idx) :
    k0_pay3 v x = v (ix3 (4 : Fin 8) (x 0) (x 2)) := by
  unfold k0_pay3
  exact slab_apply v _ _ _ _ (4 : Fin 8) rfl rfl rfl x

theorem slab5_apply (v : FVec F S8x1024x256 .f32) (x : S1024x1x256.Idx) :
    k0_pay4 v x = v (ix3 (5 : Fin 8) (x 0) (x 2)) := by
  unfold k0_pay4
  exact slab_apply v _ _ _ _ (5 : Fin 8) rfl rfl rfl x

theorem slab6_apply (v : FVec F S8x1024x256 .f32) (x : S1024x1x256.Idx) :
    k0_pay5 v x = v (ix3 (6 : Fin 8) (x 0) (x 2)) := by
  unfold k0_pay5
  exact slab_apply v _ _ _ _ (6 : Fin 8) rfl rfl rfl x

theorem slab7_apply (v : FVec F S8x1024x256 .f32) (x : S1024x1x256.Idx) :
    k0_pay6 v x = v (ix3 (7 : Fin 8) (x 0) (x 2)) := by
  unfold k0_pay6
  exact slab_apply v _ _ _ _ (7 : Fin 8) rfl rfl rfl x

theorem slab0_apply (x0 : Vec F S8x1024x100 .f32) (x1 : Vec F S8x100x128 .f32) (x2 : Vec F S8x1x128 .f32)
    (x3 : Vec F S8x128x256 .f32) (x4 : Vec F S8x1x256 .f32) (x : S1024x1x256.Idx) :
    k0_pay8 x0 x1 x2 x3 x4 x = k0_pay7 x0 x1 x2 x3 x4 (ix3 (0 : Fin 8) (x 0) (x 2)) := by
  unfold k0_pay8
  exact slab_apply _ _ _ _ _ (0 : Fin 8) rfl rfl rfl x

theorem slab1_apply (x0 : Vec F S8x1024x100 .f32) (x1 : Vec F S8x100x128 .f32) (x2 : Vec F S8x1x128 .f32)
    (x3 : Vec F S8x128x256 .f32) (x4 : Vec F S8x1x256 .f32) (x : S1024x1x256.Idx) :
    k0_pay9 x0 x1 x2 x3 x4 x = k0_pay7 x0 x1 x2 x3 x4 (ix3 (1 : Fin 8) (x 0) (x 2)) := by
  unfold k0_pay9
  exact slab_apply _ _ _ _ _ (1 : Fin 8) rfl rfl rfl x

theorem slab2_apply (x0 : Vec F S8x1024x100 .f32) (x1 : Vec F S8x100x128 .f32) (x2 : Vec F S8x1x128 .f32)
    (x3 : Vec F S8x128x256 .f32) (x4 : Vec F S8x1x256 .f32) (x : S1024x1x256.Idx) :
    k0_pay1 (k0_pay10 x0 x1 x2 x3 x4) x = k0_pay7 x0 x1 x2 x3 x4 (ix3 (2 : Fin 8) (x 0) (x 2)) := by
  unfold k0_pay1 k0_pay10
  exact slab_apply _ _ _ _ _ (2 : Fin 8) rfl rfl rfl x

/-! ## The block after the eight stores -/

theorem zero3 : (![0, 0, 0] : Fin 3 → Nat) = fun _ => 0 := funext fun a => by fin_cases a <;> rfl

/-- The output block holds at (b, g, o) the computed value's entry (g, b, o). -/
theorem stored_apply (x0 : Vec F S8x1024x100 .f32) (x1 : Vec F S8x100x128 .f32) (x2 : Vec F S8x1x128 .f32)
    (x3 : Vec F S8x128x256 .f32) (x4 : Vec F S8x1x256 .f32) (b : Fin 1024) (g : Fin 8) (o : Fin 256) :
    out0_5 x0 x1 x2 x3 x4 (ix3 b g o) = k0_pay7 x0 x1 x2 x3 x4 (ix3 g b o) := by
  unfold out0_5
  simp only [View.ld_unit_zero (S := S8x1024x100) zero3, View.ld_unit_zero (S := S8x100x128) zero3,
    View.ld_unit_zero (S := S8x1x128) zero3, View.ld_unit_zero (S := S8x128x256) zero3,
    View.ld_unit_zero (S := S8x1x256) zero3]
  -- the one function every store restricts: block entry (b, g, o) is value entry (g, b, o)
  refine (View.canon_apply_of_pieces
    (fun y : S1024x8x256.Idx => k0_pay7 x0 x1 x2 x3 x4 (ix3 (y 1) (y 0) (y 2))) _ ?_ (ix3 b g o)
    (cover0_5 _ _ _ _ _ _ _ _ _)).trans rfl
  intro p hp
  simp only [List.mem_cons, List.mem_nil_iff, or_false] at hp
  rcases hp with rfl | rfl | rfl | rfl | rfl | rfl | rfl | rfl
  all_goals intro x
  · exact (slab7_apply _ x).trans (congrArg (k0_pay7 x0 x1 x2 x3 x4) (funext fun a => Fin.ext (by
      have hx1 : (x 1).val < 1 := (x 1).isLt
      match a with
      | ⟨0, _⟩ => show 7 = 7 + 1 * (x 1).val; omega
      | ⟨1, _⟩ => show (x 0).val = 0 + 1 * (x 0).val; omega
      | ⟨2, _⟩ => show (x 2).val = 0 + 1 * (x 2).val; omega)))
  · exact (slab6_apply _ x).trans (congrArg (k0_pay7 x0 x1 x2 x3 x4) (funext fun a => Fin.ext (by
      have hx1 : (x 1).val < 1 := (x 1).isLt
      match a with
      | ⟨0, _⟩ => show 6 = 6 + 1 * (x 1).val; omega
      | ⟨1, _⟩ => show (x 0).val = 0 + 1 * (x 0).val; omega
      | ⟨2, _⟩ => show (x 2).val = 0 + 1 * (x 2).val; omega)))
  · exact (slab5_apply _ x).trans (congrArg (k0_pay7 x0 x1 x2 x3 x4) (funext fun a => Fin.ext (by
      have hx1 : (x 1).val < 1 := (x 1).isLt
      match a with
      | ⟨0, _⟩ => show 5 = 5 + 1 * (x 1).val; omega
      | ⟨1, _⟩ => show (x 0).val = 0 + 1 * (x 0).val; omega
      | ⟨2, _⟩ => show (x 2).val = 0 + 1 * (x 2).val; omega)))
  · exact (slab4_apply _ x).trans (congrArg (k0_pay7 x0 x1 x2 x3 x4) (funext fun a => Fin.ext (by
      have hx1 : (x 1).val < 1 := (x 1).isLt
      match a with
      | ⟨0, _⟩ => show 4 = 4 + 1 * (x 1).val; omega
      | ⟨1, _⟩ => show (x 0).val = 0 + 1 * (x 0).val; omega
      | ⟨2, _⟩ => show (x 2).val = 0 + 1 * (x 2).val; omega)))
  · exact (slab3_apply _ x).trans (congrArg (k0_pay7 x0 x1 x2 x3 x4) (funext fun a => Fin.ext (by
      have hx1 : (x 1).val < 1 := (x 1).isLt
      match a with
      | ⟨0, _⟩ => show 3 = 3 + 1 * (x 1).val; omega
      | ⟨1, _⟩ => show (x 0).val = 0 + 1 * (x 0).val; omega
      | ⟨2, _⟩ => show (x 2).val = 0 + 1 * (x 2).val; omega)))
  · exact (slab2_apply x0 x1 x2 x3 x4 x).trans (congrArg (k0_pay7 x0 x1 x2 x3 x4) (funext fun a => Fin.ext (by
      have hx1 : (x 1).val < 1 := (x 1).isLt
      match a with
      | ⟨0, _⟩ => show 2 = 2 + 1 * (x 1).val; omega
      | ⟨1, _⟩ => show (x 0).val = 0 + 1 * (x 0).val; omega
      | ⟨2, _⟩ => show (x 2).val = 0 + 1 * (x 2).val; omega)))
  · exact (slab1_apply x0 x1 x2 x3 x4 x).trans (congrArg (k0_pay7 x0 x1 x2 x3 x4) (funext fun a => Fin.ext (by
      have hx1 : (x 1).val < 1 := (x 1).isLt
      match a with
      | ⟨0, _⟩ => show 1 = 1 + 1 * (x 1).val; omega
      | ⟨1, _⟩ => show (x 0).val = 0 + 1 * (x 0).val; omega
      | ⟨2, _⟩ => show (x 2).val = 0 + 1 * (x 2).val; omega)))
  · exact (slab0_apply x0 x1 x2 x3 x4 x).trans (congrArg (k0_pay7 x0 x1 x2 x3 x4) (funext fun a => Fin.ext (by
      have hx1 : (x 1).val < 1 := (x 1).isLt
      match a with
      | ⟨0, _⟩ => show 0 = 0 + 1 * (x 1).val; omega
      | ⟨1, _⟩ => show (x 0).val = 0 + 1 * (x 0).val; omega
      | ⟨2, _⟩ => show (x 2).val = 0 + 1 * (x 2).val; omega)))

end Cert.KernelIdeal.BodyValue

end
-- ==== Proof.KernelValue.lean ====
/-
  From blocks to the array.  Grid point t (of 32) works on generators 8t … 8t+7: it reads block t of the noise and of
  both weight arrays along their generator axis, block t of the two bias arrays (which the host first reshapes
  [256, k] → [256, 1, k], so that entry (g, 0, j) is the bias's (g, j)), and writes block t of the output along ITS
  generator axis, the middle one.  By the two previous steps the block it writes holds at (b, g, o) the perceptron's
  output for generator 8t + g on batch row b — which is the image's entry (b, 8t + g, o), the entry of the result array
  under that block position.  So every point writes back its block of ONE function of the argument arrays; the 32 blocks
  cover the array (generator γ lies in block γ / 8); hence the array ends holding the image.  The program's last
  line reshapes it to [1024, 1, 256, 256].
-/
import proofs.«171724_j16664473109117_2_alg».proof.Proof.Gen.KernelIdeal.Frame
import proofs.«171724_j16664473109117_2_alg».proof.Proof.Payload
import proofs.«171724_j16664473109117_2_alg».proof.Proof.Stores
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The grid and the index maps -/

theorem point_lt (t : Fin cfg0.N) : t.val < 32 := lt_of_lt_of_eq t.isLt N_0

/-- The generator that slot `g` of point `t`'s blocks holds. -/
def gen (t : Fin cfg0.N) (g : Fin 8) : Fin 256 := ⟨t.val * 8 + g.val, by have := point_lt t; omega⟩

/-- Every input window's block index at point t is (t, 0, 0); the output's is (0, t, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = 0 ∧ win0_5.index t (1 : Fin 3) = t.val ∧ win0_5.index t (2 : Fin 3) = 0 :=
  (by decide +kernel : ∀ t : Fin grid0.N, _)

/-! ## The blocks a point reads -/

theorem noise_block (c : Dev nD) (t : Fin cfg0.N) (g : Fin 8) (b : Fin 1024) (n : Fin 100) :
    iblk m c 0 t (ix3 g b n) = m ((c : Thread nD τ).loc main_arg0) (ix3 (gen t g) b n) := by
  obtain ⟨e0, e1, e2, -⟩ := index_facts t
  show V m c main_arg0 (((cfg0.win 0).blk t).view.emb (ix3 g b n)) = _
  rw [V_main_arg0]
  refine congrArg _ (funext fun a => Fin.ext ?_)
  match a with
  | ⟨0, _⟩ => show win0_0.index t (0 : Fin 3) * 8 + 1 * g.val = t.val * 8 + g.val; omega
  | ⟨1, _⟩ => show win0_0.index t (1 : Fin 3) * 1024 + 1 * b.val = b.val; omega
  | ⟨2, _⟩ => show win0_0.index t (2 : Fin 3) * 100 + 1 * n.val = n.val; omega

theorem first_weights_block (c : Dev nD) (t : Fin cfg0.N) (g : Fin 8) (n : Fin 100) (h : Fin 128) :
    iblk m c 1 t (ix3 g n h) = m ((c : Thread nD τ).loc main_arg1) (ix3 (gen t g) n h) := by
  obtain ⟨-, -, -, e0, e1, e2, -⟩ := index_facts t
  show V m c main_arg1 (((cfg0.win 1).blk t).view.emb (ix3 g n h)) = _
  rw [V_main_arg1]
  refine congrArg _ (funext fun a => Fin.ext ?_)
  match a with
  | ⟨0, _⟩ => show win0_1.index t (0 : Fin 3) * 8 + 1 * g.val = t.val * 8 + g.val; omega
  | ⟨1, _⟩ => show win0_1.index t (1 : Fin 3) * 100 + 1 * n.val = n.val; omega
  | ⟨2, _⟩ => show win0_1.index t (2 : Fin 3) * 128 + 1 * h.val = h.val; omega

theorem second_weights_block (c : Dev nD) (t : Fin cfg0.N) (g : Fin 8) (h : Fin 128) (o : Fin 256) :
    iblk m c 3 t (ix3 g h o) = m ((c : Thread nD τ).loc main_arg3) (ix3 (gen t g) h o) := by
  obtain ⟨-, -, -, -, -, -, -, -, -, e0, e1, e2, -⟩ := index_facts t
  show V m c main_arg3 (((cfg0.win 3).blk t).view.emb (ix3 g h o)) = _
  rw [V_main_arg3]
  refine congrArg _ (funext fun a => Fin.ext ?_)
  match a with
  | ⟨0, _⟩ => show win0_3.index t (0 : Fin 3) * 8 + 1 * g.val = t.val * 8 + g.val; omega
  | ⟨1, _⟩ => show win0_3.index t (1 : Fin 3) * 128 + 1 * h.val = h.val; omega
  | ⟨2, _⟩ => show win0_3.index t (2 : Fin 3) * 256 + 1 * o.val = o.val; omega

/-- The host reshapes the first layer's bias [256, 128] → [256, 1, 128] before the region. -/
theorem first_bias_array (c : Dev nD) :
    (V m c main_v0 : S256x1x128.Idx → EReal)
      = shapeCast S256x1x128 (m ((c : Thread nD τ).loc main_arg2)) shapeCasts_S256x128_S256x1x128 := by
  show StableHlo.after hostOps0 (fun b => m (c, b)) (Proc.devRef .tc main_v0) = _
  after_results
  rfl

theorem first_bias_block (c : Dev nD) (t : Fin cfg0.N) (g : Fin 8) (h : Fin 128) :
    iblk m c 2 t (ix3 g (0 : Fin 1) h) = m ((c : Thread nD τ).loc main_arg2) (ix2 (gen t g) h) := by
  obtain ⟨-, -, -, -, -, -, e0, e1, e2, -⟩ := index_facts t
  show V m c main_v0 (((cfg0.win 2).blk t).view.emb (ix3 g (0 : Fin 1) h)) = _
  rw [first_bias_array]
  refine (shapeCast_apply _ _ _ (ix2 (gen t g) h) ?_).trans rfl
  rw [Shape.rowMajor_val_two, Shape.rowMajor_val_three]
  show (t.val * 8 + g.val) * 128 + h.val
    = ((win0_2.index t (0 : Fin 3) * 8 + 1 * g.val) * 1 + (win0_2.index t (1 : Fin 3) * 1 + 1 * 0)) * 128
      + (win0_2.index t (2 : Fin 3) * 128 + 1 * h.val)
  omega

/-- The host reshapes the second layer's bias [256, 256] → [256, 1, 256] before the region. -/
theorem second_bias_array (c : Dev nD) :
    (V m c main_v1 : S256x1x256.Idx → EReal)
      = shapeCast S256x1x256 (m ((c : Thread nD τ).loc main_arg4)) shapeCasts_S256x256_S256x1x256 := by
  show StableHlo.after hostOps0 (fun b => m (c, b)) (Proc.devRef .tc main_v1) = _
  after_results
  rfl

theorem second_bias_block (c : Dev nD) (t : Fin cfg0.N) (g : Fin 8) (o : Fin 256) :
    iblk m c 4 t (ix3 g (0 : Fin 1) o) = m ((c : Thread nD τ).loc main_arg4) (ix2 (gen t g) o) := by
  obtain ⟨-, -, -, -, -, -, -, -, -, -, -, -, e0, e1, e2, -⟩ := index_facts t
  show V m c main_v1 (((cfg0.win 4).blk t).view.emb (ix3 g (0 : Fin 1) o)) = _
  rw [second_bias_array]
  refine (shapeCast_apply _ _ _ (ix2 (gen t g) o) ?_).trans rfl
  rw [Shape.rowMajor_val_two, Shape.rowMajor_val_three]
  show (t.val * 8 + g.val) * 256 + o.val
    = ((win0_4.index t (0 : Fin 3) * 8 + 1 * g.val) * 1 + (win0_4.index t (1 : Fin 3) * 1 + 1 * 0)) * 256
      + (win0_4.index t (2 : Fin 3) * 256 + 1 * o.val)
  omega

/-! ## What a point writes back -/

/-- If slot g of each input block holds generator γ g of its argument array (the bias blocks at their unit middle
    coordinate), then the output block's entry (b, g, o) is the image's entry (b, γ g, o). -/
theorem block_entry (a0 : S256x1024x100.Idx → EReal) (a1 : S256x100x128.Idx → EReal) (a2 : S256x128.Idx → EReal)
    (a3 : S256x128x256.Idx → EReal) (a4 : S256x256.Idx → EReal)
    (x0 : Vec Ideal S8x1024x100 .f32) (x1 : Vec Ideal S8x100x128 .f32) (x2 : Vec Ideal S8x1x128 .f32)
    (x3 : Vec Ideal S8x128x256 .f32) (x4 : Vec Ideal S8x1x256 .f32) (γ : Fin 8 → Fin 256)
    (h0 : ∀ (g : Fin 8) (b : Fin 1024) (n : Fin 100), x0 (ix3 g b n) = a0 (ix3 (γ g) b n))
    (h1 : ∀ (g : Fin 8) (n : Fin 100) (h : Fin 128), x1 (ix3 g n h) = a1 (ix3 (γ g) n h))
    (h2 : ∀ (g : Fin 8) (h : Fin 128), x2 (ix3 g (0 : Fin 1) h) = a2 (ix2 (γ g) h))
    (h3 : ∀ (g : Fin 8) (h : Fin 128) (o : Fin 256), x3 (ix3 g h o) = a3 (ix3 (γ g) h o))
    (h4 : ∀ (g : Fin 8) (o : Fin 256), x4 (ix3 g (0 : Fin 1) o) = a4 (ix2 (γ g) o))
    (b : Fin 1024) (g : Fin 8) (o : Fin 256) :
    out0_5 x0 x1 x2 x3 x4 (ix3 b g o) = Cert.Mlp.image a0 a1 a2 a3 a4 (ix3 b (γ g) o) := by
  refine (BodyValue.stored_apply x0 x1 x2 x3 x4 b g o).trans ((BodyValue.value_apply x0 x1 x2 x3 x4 g b o).trans ?_)
  show _ = Cert.Mlp.unit (fun n => a0 (ix3 (γ g) b n)) (fun n h => a1 (ix3 (γ g) n h)) (fun h => a2 (ix2 (γ g) h))
    (fun h => a3 (ix3 (γ g) h o)) (a4 (ix2 (γ g) o))
  simp only [h0, h1, h2, h3, h4]

/-- WHAT POINT `t` WRITES BACK is block `t` of the image of the argument arrays. -/
theorem flushed_eq (c : Dev nD) (t : Fin cfg0.N) :
    (dats m 0 c).flushed 5 t = ((cfg0.win 5).blk t).view.read (Elt Ideal) (Cert.Mlp.image (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 5).cut (grid0.coords t) ((dats m 0 c).after 5 t) = _
  rw [after0_5]
  obtain ⟨-, -, -, -, -, -, -, -, -, -, -, -, -, -, -, e0, e1, e2⟩ := index_facts t
  funext j
  obtain ⟨b, g, o, rfl⟩ : ∃ (b : Fin 1024) (g : Fin 8) (o : Fin 256), j = ix3 b g o := ⟨j 0, j 1, j 2, eq_ix3 j⟩
  show out0_5 (iblk m c 0 t) (iblk m c 1 t) (iblk m c 2 t) (iblk m c 3 t) (iblk m c 4 t) (ix3 b g o)
    = Cert.Mlp.image (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix3 b g o))
  refine (block_entry _ _ _ _ _ _ _ _ _ _ (gen t) (noise_block m c t) (first_weights_block m c t) (first_bias_block m c t)
    (second_weights_block m c t) (second_bias_block m c t) b g o).trans ?_
  refine congrArg _ (funext fun a => Fin.ext ?_)
  match a with
  | ⟨0, _⟩ => show b.val = win0_5.index t (0 : Fin 3) * 1024 + 1 * b.val; omega
  | ⟨1, _⟩ => show t.val * 8 + g.val = win0_5.index t (1 : Fin 3) * 8 + 1 * g.val; omega
  | ⟨2, _⟩ => show o.val = win0_5.index t (2 : Fin 3) * 256 + 1 * o.val; omega

/-! ## The blocks cover the array -/

/-- An index of the result array is in point `t`'s block iff each coordinate is in the block's range on its axis. -/
theorem mem_block (t : Fin cfg0.N) (i : S1024x256x256.Idx) :
    i ∈ ((cfg0.win 5).blk t).view.set ↔ ∀ a : Fin 3, win0_5.index t a * S1024x8x256.size a ≤ (i a).val
      ∧ (i a).val < win0_5.index t a * S1024x8x256.size a + S1024x8x256.size a := by
  show i ∈ ((View.whole main_v2).slice (win0_5.rect t)).set ↔ _
  rw [View.set_slice_whole, Rect.mem_set_unit]
  exact Iff.rfl

/-- Generator γ's entries lie in the block of point γ / 8. -/
theorem covered (i : S1024x256x256.Idx) :
    ∃ t : Fin cfg0.N, (cfg0.win 5).flush t = true ∧ i ∈ ((cfg0.win 5).blk t).view.set := by
  have hi0 : (i 0).val < 1024 := (i 0).isLt
  have hi1 : (i 1).val < 256 := (i 1).isLt
  have hi2 : (i 2).val < 256 := (i 2).isLt
  let t : Fin cfg0.N := ⟨(i 1).val / 8, lt_of_lt_of_eq (by omega : (i 1).val / 8 < 32) N_0.symm⟩
  have ht : t.val = (i 1).val / 8 := rfl
  obtain ⟨-, -, -, -, -, -, -, -, -, -, -, -, -, -, -, e0, e1, e2⟩ := index_facts t
  refine ⟨t, flush0_5 t, ?_⟩
  rw [mem_block]
  intro a
  match a with
  | ⟨0, _⟩ =>
    show win0_5.index t (0 : Fin 3) * 1024 ≤ (i 0).val ∧ (i 0).val < win0_5.index t (0 : Fin 3) * 1024 + 1024
    omega
  | ⟨1, _⟩ =>
    show win0_5.index t (1 : Fin 3) * 8 ≤ (i 1).val ∧ (i 1).val < win0_5.index t (1 : Fin 3) * 8 + 8
    omega
  | ⟨2, _⟩ =>
    show win0_5.index t (2 : Fin 3) * 256 ≤ (i 2).val ∧ (i 2).val < win0_5.index t (2 : Fin 3) * 256 + 256
    omega

/-- THE ARRAY after the region: the image of the argument arrays. -/
theorem final (c : Dev nD) : (dats m 0 c).arrAt 5 cfg0.N = Cert.Mlp.image (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) covered

/-! ## The line after the region, and the run -/

/-- The program's result: the region's array, reshaped [1024, 256, 256] → [1024, 1, 256, 256]. -/
theorem tail_eq (c : Dev nD) :
    Pipeline.afterTail₀ cfgs (dats m) 0 (V0 m) [hostOps1] c main_v3
      = shapeCast S1024x1x256x256 ((dats m 0 c).arrAt 5 cfg0.N) shapeCasts_S1024x256x256_S1024x1x256x256 := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = (dats m 0 c).arrAt 5 cfg0.N :=
    Pipeline.withArrays_arr spec0 launch0.win.arr_inj c _ _ 5
  exact congrArg (fun v => shapeCast S1024x1x256x256 v shapeCasts_S1024x256x256_S1024x1x256x256) hw

/-- The kernel program's run, read: every weakly fair execution terminates with the result array at the reshaped image
    of the argument arrays, and the argument arrays unchanged. -/
theorem run : θ_run defs (onTc (τ := τ) (main (F := Ideal))) ⟨m, fun _ => 0, ρ⟩ fun r => ∀ c : Dev nD,
      r.2.mem ((c.tc : Thread nD τ).loc main_v3)
        = shapeCast S1024x1x256x256 (Cert.Mlp.image (m ((c : Thread nD τ).loc main_arg0)) (m ((c : Thread nD τ).loc main_arg1)) (m ((c : Thread nD τ).loc main_arg2)) (m ((c : Thread nD τ).loc main_arg3)) (m ((c : Thread nD τ).loc main_arg4))) shapeCasts_S1024x256x256_S1024x1x256x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans
        ((tail_eq m c).trans (congrArg (fun v => shapeCast S1024x1x256x256 v shapeCasts_S1024x256x256_S1024x1x256x256) (final m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.ArrayValue

end
-- ==== Proof.RefIsMlp.lean ====
/-
  The reference, read one operation at a time.  Its result is a reshape of the array
      transpose (tanh (h · W2 + b2)),   h = max (x · W1 + b1) 0,
  the two products batched over the generator axis and the biases broadcast along the batch axis.  Read at an index
  (b, g, o): the transpose swaps the first two coordinates, each batched product is a sum over its contracted axis
  with the generator coordinate shared by both factors, and a broadcast bias is the bias at (g, ·).  That is
  `Mlp.image` entry by entry.
-/
import proofs.«171724_j16664473109117_2_alg».proof.Proof.Gen.ReferenceIdeal.Read
import proofs.«171724_j16664473109117_2_alg».proof.Proof.Mlp

noncomputable section

namespace Cert.ReferenceIdeal.RefValue

open Cert.ReferenceIdeal Cert.ReferenceIdeal.Read Idealize.ShloMosaic Idealize.ShloMosaic.ValueIdx

/-- The reference's array before its last reshape is the perceptrons' image of the argument arrays. -/
theorem transposed_eq (x0 : S256x1024x100.Idx → EReal) (x1 : S256x100x128.Idx → EReal) (x2 : S256x128.Idx → EReal)
    (x3 : S256x128x256.Idx → EReal) (x4 : S256x256.Idx → EReal) :
    val_main_v10 (F := Ideal) x0 x1 x2 x3 x4 = Cert.Mlp.image x0 x1 x2 x3 x4 := by
  funext i
  obtain ⟨b, g, o, rfl⟩ : ∃ (b : Fin 1024) (g : Fin 256) (o : Fin 256), i = ix3 b g o := ⟨i 0, i 1, i 2, eq_ix3 i⟩
  -- the index each operation reads, in coordinates
  have e10 : idx_main_v10 (ix3 b g o) = ix3 g b o :=
    funext fun a => Fin.ext (by match a with | ⟨0, _⟩ => rfl | ⟨1, _⟩ => rfl | ⟨2, _⟩ => rfl)
  have el5 : ∀ k : Fin 128, lidx_main_v5 (ix3 g b o) k = ix3 g b k := fun k =>
    funext fun a => Fin.ext (by match a with | ⟨0, _⟩ => rfl | ⟨1, _⟩ => rfl | ⟨2, _⟩ => rfl)
  have er5 : ∀ k : Fin 128, ridx_main_v5 (ix3 g b o) k = ix3 g k o := fun k =>
    funext fun a => Fin.ext (by match a with | ⟨0, _⟩ => rfl | ⟨1, _⟩ => rfl | ⟨2, _⟩ => rfl)
  have el0 : ∀ (h : Fin 128) (n : Fin 100), lidx_main_v0 (ix3 g b h) n = ix3 g b n := fun h n =>
    funext fun a => Fin.ext (by match a with | ⟨0, _⟩ => rfl | ⟨1, _⟩ => rfl | ⟨2, _⟩ => rfl)
  have er0 : ∀ (h : Fin 128) (n : Fin 100), ridx_main_v0 (ix3 g b h) n = ix3 g n h := fun h n =>
    funext fun a => Fin.ext (by match a with | ⟨0, _⟩ => rfl | ⟨1, _⟩ => rfl | ⟨2, _⟩ => rfl)
  have eb1 : ∀ h : Fin 128, idx_main_v1 (idx_main_v2 (ix3 g b h)) = ix2 g h := fun h =>
    funext fun a => Fin.ext (by match a with | ⟨0, _⟩ => rfl | ⟨1, _⟩ => rfl)
  have eb2 : idx_main_v6 (idx_main_v7 (ix3 g b o)) = ix2 g o :=
    funext fun a => Fin.ext (by match a with | ⟨0, _⟩ => rfl | ⟨1, _⟩ => rfl)
  rw [val_main_v10_apply, e10, val_main_v9_apply, val_main_v8_apply, val_main_v5_apply, val_main_v7_apply,
    val_main_v6_apply, eb2]
  simp only [el5, er5, val_main_v4_apply, val_main_v3_apply, val_main_v0_apply, val_main_v2_apply, val_main_v1_apply,
    val_main_call0_v0_apply, val_main_call0_cst_apply, el0, er0, eb1]
  rfl

end Cert.ReferenceIdeal.RefValue

end
-- ==== Proof.lean ====
/-
  The kernel against its reference: 256 independent two-layer perceptrons (noise [1024, 100] → hidden [1024, 128]
  → output [1024, 256], a rectifier after the first layer and tanh after the second), their outputs laid batch-major
  and reshaped to [1024, 1, 256, 256].  The kernel runs eight perceptrons per grid point and stores their outputs
  already transposed; the reference computes all of them with two batched products and transposes afterwards.

  On the extended reals both programs compute, entry by entry, the function `Mlp.image` of the five argument arrays
  (Proof/Mlp.lean): a matrix product into a zero accumulator and the host's batched product are the same sum over the
  contracted axis, a change of tiling or of the order of a transpose changes no entry, and the two programs carry the
  same zero word for the rectifier.  The kernel's side is read off the generated frame run (Proof/Payload.lean: the
  arithmetic at an index; Proof/Stores.lean: the eight stores transpose it; Proof/KernelValue.lean: blocks to the
  array, and the last reshape); the reference's off its generated run, one operation at a time (Proof/RefIsMlp.lean).
  No algebraic law is needed to join them, so the precondition (finite inputs) is not used.
  The three frames are the generated ones; the idealization rewrote nothing, so `preserves` is `True`.
-/
import proofs.«171724_j16664473109117_2_alg».proof.Defs
import proofs.«171724_j16664473109117_2_alg».proof.Proof.Gen.Kernel
import proofs.«171724_j16664473109117_2_alg».proof.Proof.Gen.Kernel.Frame
import proofs.«171724_j16664473109117_2_alg».proof.Proof.Gen.KernelIdeal
import proofs.«171724_j16664473109117_2_alg».proof.Proof.Gen.KernelIdeal.Frame
import proofs.«171724_j16664473109117_2_alg».proof.Proof.Gen.ReferenceIdeal
import proofs.«171724_j16664473109117_2_alg».proof.Proof.Gen.Pre_finite_inputs
import proofs.«171724_j16664473109117_2_alg».proof.Proof.Gen.ReferenceIdeal.Run
import proofs.«171724_j16664473109117_2_alg».proof.Proof.Gen.ReferenceIdeal.Read
import proofs.«171724_j16664473109117_2_alg».proof.Proof.KernelValue
import proofs.«171724_j16664473109117_2_alg».proof.Proof.RefIsMlp
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference launches no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reshaped image of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq]
  unfold Cert.ReferenceIdeal.Read.val_main_v11
  rw [Cert.ReferenceIdeal.RefValue.transposed_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
